-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x1000x64 : Shape := ⟨4, ![16, 32, 1000, 64]⟩
abbrev S_ : Shape := ⟨0, ![]⟩

class Facts : Prop where
  bcast_S_S16x32x1000x64 : S_.BroadcastsInDim S16x32x1000x64 (![] : Fin 0 → Fin S16x32x1000x64.rank)
  reducesTo_S16x32x1000x64_S_d0_1_2_3 : S16x32x1000x64.ReducesTo [0, 1, 2, 3] S_
  h_S_ : 0 < S_.numel

variable [Facts]

def fn {F : FTy → Type} [FloatOps F] (main_arg0 : FVec F S16x32x1000x64 .f32) : IVec S_ 1 :=
  let main_v0 : FVec F S16x32x1000x64 .f32 := Host.absf main_arg0
  let main_cst : FVec F S_ .f32 := constant S_ .f32 0x7F800000#32
  let main_v1 : FVec F S16x32x1000x64 .f32 := broadcastInDim S16x32x1000x64 ![] bcast_S_S16x32x1000x64 main_cst
  let main_v2 : IVec S16x32x1000x64 1 := cmpf .olt main_v0 main_v1
  let main_c : IVec S_ 1 := constantI S_ 1 1#1
  let main_v3 : IVec S_ 1 := (fun x v => Host.reduce IntOp.andi x v reducesTo_S16x32x1000x64_S_d0_1_2_3 h_S_) main_v2 main_c
  main_v3
-- ==== Kernel.lean ====
abbrev S16x32x1000x64 : Shape := ⟨4, ![16, 32, 1000, 64]⟩
abbrev S16x32x64x1000 : Shape := ⟨4, ![16, 32, 64, 1000]⟩
abbrev S1x16x1000x64 : Shape := ⟨4, ![1, 16, 1000, 64]⟩
abbrev S1x16x64x1000 : Shape := ⟨4, ![1, 16, 64, 1000]⟩
abbrev S16x1000x64 : Shape := ⟨3, ![16, 1000, 64]⟩
abbrev S16x64x1000 : Shape := ⟨3, ![16, 64, 1000]⟩
abbrev S16x32x320x200 : Shape := ⟨4, ![16, 32, 320, 200]⟩
abbrev S64 : Shape := ⟨1, ![64]⟩
abbrev S64x5 : Shape := ⟨2, ![64, 5]⟩
abbrev S320 : Shape := ⟨1, ![320]⟩
abbrev S5 : Shape := ⟨1, ![5]⟩
abbrev S1x5 : Shape := ⟨2, ![1, 5]⟩

abbrev nBuf : Space → Nat
  | .hbm => 10
  | .vmem => 4
  | .smem => 0
  | _ => 0

abbrev bufTy : (tb : Table) → Fin (tcTables nBuf tb) → BufTy
  | .hbm, ⟨0, _⟩ => ⟨S16x32x1000x64, .f32⟩
  | .hbm, ⟨1, _⟩ => ⟨S16x32x64x1000, .f32⟩
  | .hbm, ⟨2, _⟩ => ⟨S16x32x320x200, .f32⟩
  | .hbm, ⟨3, _⟩ => ⟨S64, .i32⟩
  | .hbm, ⟨4, _⟩ => ⟨S64x5, .i32⟩
  | .hbm, ⟨5, _⟩ => ⟨S320, .i32⟩
  | .hbm, ⟨6, _⟩ => ⟨S5, .i32⟩
  | .hbm, ⟨7, _⟩ => ⟨S1x5, .i32⟩
  | .hbm, ⟨8, _⟩ => ⟨S64x5, .i32⟩
  | .hbm, ⟨9, _⟩ => ⟨S320, .i32⟩
  | .local _ .vmem, ⟨0, _⟩ => ⟨S1x16x1000x64, .f32⟩
  | .local _ .vmem, ⟨1, _⟩ => ⟨S1x16x1000x64, .f32⟩
  | .local _ .vmem, ⟨2, _⟩ => ⟨S1x16x64x1000, .f32⟩
  | .local _ .vmem, ⟨3, _⟩ => ⟨S1x16x64x1000, .f32⟩
  | _, _ => ⟨S16x32x1000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x1000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x64x1000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x16x1000x64_S1x16x1000x64_0_0_0_0 : ∀ a, (![0, 0, 0, 0] : Fin 4 → Nat) a + S1x16x1000x64.size a ≤ S1x16x1000x64.size a
  h_S1x16x1000x64 : 0 < S1x16x1000x64.numel
  shapeCasts_S1x16x1000x64_S16x1000x64 : S1x16x1000x64.ShapeCasts S16x1000x64
  transposes_S16x1000x64_p0_2_1_S16x64x1000 : S16x1000x64.Transposes [0, 2, 1] S16x64x1000
  inb_S1x16x64x1000_S1x16x64x1000_0_0_0_0 : ∀ a, (![0, 0, 0, 0] : Fin 4 → Nat) a + S1x16x64x1000.size a ≤ S1x16x64x1000.size a
  h_S1x16x64x1000 : 0 < S1x16x64x1000.numel
  shapeCasts_S1x16x64x1000_S16x64x1000 : S1x16x64x1000.ShapeCasts S16x64x1000
  shapeCasts_S16x64x1000_S1x16x64x1000 : S16x64x1000.ShapeCasts S1x16x64x1000
  shapeCasts_S16x32x64x1000_S16x32x320x200 : S16x32x64x1000.ShapeCasts S16x32x320x200
  bcast_S64_S64x5_0 : S64.BroadcastsInDim S64x5 (![0] : Fin 1 → Fin S64x5.rank)
  shapeCasts_S64x5_S320 : S64x5.ShapeCasts S320
  shapeCasts_S5_S1x5 : S5.ShapeCasts S1x5
  bcast_S1x5_S64x5_0_1 : S1x5.BroadcastsInDim S64x5 (![0, 1] : Fin 2 → Fin S64x5.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x1000x64.size a ≤ S16x32x1000x64.size a
  hwx0_0 : ∀ i : grid0.Coords, EltTy.bits .f32 = 32 ∨ (Rect.block (s := S16x32x1000x64) S1x16x1000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x64x1000.size a ≤ S16x32x64x1000.size a
  hwx0_1 : ∀ i : grid0.Coords, EltTy.bits .f32 = 32 ∨ (Rect.block (s := S16x32x64x1000) S1x16x64x1000.size (cc0_transform_1 i) (hinb0_1 i)).WholeWords (EltTy.packing .f32)

variable [Facts₀]

abbrev win0_0 : Pipeline.Window sig grid0 :=
  Pipeline.Window.ofSpec (Memref.whole main_arg0) S1x16x1000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x16x64x1000.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x32x1000x64 : Shape := ⟨4, ![16, 32, 1000, 64]⟩
abbrev S16x32x64x1000 : Shape := ⟨4, ![16, 32, 64, 1000]⟩
abbrev S16x32x320x200 : Shape := ⟨4, ![16, 32, 320, 200]⟩
abbrev S64 : Shape := ⟨1, ![64]⟩
abbrev S64x5 : Shape := ⟨2, ![64, 5]⟩
abbrev S320 : Shape := ⟨1, ![320]⟩
abbrev S5 : Shape := ⟨1, ![5]⟩
abbrev S1x5 : Shape := ⟨2, ![1, 5]⟩

abbrev nBuf : Space → Nat
  | .hbm => 10
  | .vmem => 0
  | .smem => 0
  | _ => 0

abbrev bufTy : (tb : Table) → Fin (tcTables nBuf tb) → BufTy
  | .hbm, ⟨0, _⟩ => ⟨S16x32x1000x64, .f32⟩
  | .hbm, ⟨1, _⟩ => ⟨S16x32x64x1000, .f32⟩
  | .hbm, ⟨2, _⟩ => ⟨S16x32x320x200, .f32⟩
  | .hbm, ⟨3, _⟩ => ⟨S64, .i32⟩
  | .hbm, ⟨4, _⟩ => ⟨S64x5, .i32⟩
  | .hbm, ⟨5, _⟩ => ⟨S320, .i32⟩
  | .hbm, ⟨6, _⟩ => ⟨S5, .i32⟩
  | .hbm, ⟨7, _⟩ => ⟨S1x5, .i32⟩
  | .hbm, ⟨8, _⟩ => ⟨S64x5, .i32⟩
  | .hbm, ⟨9, _⟩ => ⟨S320, .i32⟩
  | _, _ => ⟨S16x32x1000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]

class Facts₀ : Prop where
  transposes_S16x32x1000x64_S16x32x64x1000_0_1_3_2 : S16x32x1000x64.Transposes [0, 1, 3, 2] S16x32x64x1000
  shapeCasts_S16x32x64x1000_S16x32x320x200 : S16x32x64x1000.ShapeCasts S16x32x320x200
  bcast_S64_S64x5_0 : S64.BroadcastsInDim S64x5 (![0] : Fin 1 → Fin S64x5.rank)
  shapeCasts_S64x5_S320 : S64x5.ShapeCasts S320
  shapeCasts_S5_S1x5 : S5.ShapeCasts S1x5
  bcast_S1x5_S64x5_0_1 : S1x5.BroadcastsInDim S64x5 (![0, 1] : Fin 2 → Fin S64x5.rank)

variable [Facts₀]

class Facts : Prop extends Facts₀ where

variable [Facts]
-- ==== Proof.BlockPayload.lean ====
/-
  What the kernel body computes on one block. A block of the input is x0[0, w, t, ch] (extents 1 × 16 × 1000 × 64);
  the body drops the unit axis, exchanges the last two axes and puts the unit axis back, so the stored block is
  y0[0, w, ch, t] = x0[0, w, t, ch].
-/
import proofs.«110156_j82669530513970_2_alg».proof.Proof.Gen.KernelIdeal.Skeleton
import Idealize.ShloMosaic.Lib.Pipeline.Value

noncomputable section

namespace Cert.KernelIdeal.Hand

open Cert.KernelIdeal Cert.KernelIdeal.Gen Idealize.ShloMosaic

variable {F : FTy → Type} [FloatOps F]

/-- (w, ch, t): the position of (0, w, ch, t) once the unit axis is dropped. -/
def dropUnit (j : S1x16x64x1000.Idx) : S16x64x1000.Idx := fun a => match a with
  | ⟨0, _⟩ => ⟨(j 1).val, (j 1).isLt⟩
  | ⟨1, _⟩ => ⟨(j 2).val, (j 2).isLt⟩
  | ⟨2, _⟩ => ⟨(j 3).val, (j 3).isLt⟩

/-- (w, t, ch): the same position before the exchange of the last two axes. -/
def dropUnitBack (j : S1x16x64x1000.Idx) : S16x1000x64.Idx := fun a => match a with
  | ⟨0, _⟩ => ⟨(j 1).val, (j 1).isLt⟩
  | ⟨1, _⟩ => ⟨(j 3).val, (j 3).isLt⟩
  | ⟨2, _⟩ => ⟨(j 2).val, (j 2).isLt⟩

/-- The stored block at (0, w, ch, t) is the loaded block at any index `k` whose coordinates are (0, w, t, ch). -/
theorem pay_apply (x0 : Vec F S1x16x1000x64 .f32) (j : S1x16x64x1000.Idx) (k : S1x16x1000x64.Idx)
    (h1 : (k 1).val = (j 1).val) (h2 : (k 2).val = (j 3).val) (h3 : (k 3).val = (j 2).val) :
    k0_pay1 x0 j = x0 k := by
  have hj0 : (j 0).val < 1 := (j 0).isLt
  have hk0 : (k 0).val < 1 := (k 0).isLt
  unfold k0_pay1
  refine (shapeCast_apply _ _ j (dropUnit j) ?_).trans
    ((transpose_apply [0, 2, 1] _ _ (dropUnit j) (dropUnitBack j) ?_).trans
      (shapeCast_apply _ _ (dropUnitBack j) k ?_))
  · rw [Shape.rowMajor_val_three, Shape.rowMajor_val_four]
    show ((j 1).val * 64 + (j 2).val) * 1000 + (j 3).val = (((j 0).val * 16 + (j 1).val) * 64 + (j 2).val) * 1000 + (j 3).val
    omega
  · intro b
    match b with
    | ⟨0, _⟩ => rfl
    | ⟨1, _⟩ => rfl
    | ⟨2, _⟩ => rfl
  · rw [Shape.rowMajor_val_four, Shape.rowMajor_val_three]
    show (((k 0).val * 16 + (k 1).val) * 1000 + (k 2).val) * 64 + (k 3).val = ((j 1).val * 1000 + (j 3).val) * 64 + (j 2).val
    rw [h1, h2, h3]
    omega

end Cert.KernelIdeal.Hand

end
-- ==== Proof.Swapped.lean ====
/-
  The specification. The input is an array x[b, w, t, ch] of extents 16 × 32 × 1000 × 64; the intermediate result is
  the same numbers laid out as y[b, w, ch, t] = x[b, w, t, ch] (the last two axes exchanged), extents
  16 × 32 × 64 × 1000. Nothing is computed: every entry of y is one entry of x, so the statement holds for values of
  any kind (floats read as extended reals included) and needs no finiteness.
-/
import Idealize.ShloMosaic.Lib.Pipeline.Value

namespace Cert.Patches

open Idealize.ShloMosaic

/-- The input's index space, (b, w, t, ch). -/
abbrev SIn : Shape := ⟨4, ![16, 32, 1000, 64]⟩
/-- The exchanged array's index space, (b, w, ch, t). -/
abbrev SOut : Shape := ⟨4, ![16, 32, 64, 1000]⟩

/-- The entry of the input that position (b, w, ch, t) of the exchanged array shows: (b, w, t, ch). -/
def src (i : SOut.Idx) : SIn.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 2).val, (i 2).isLt⟩

/-- The input with its last two axes exchanged. -/
def swapped {α : Type} (x : SIn.Idx → α) : SOut.Idx → α := fun i => x (src i)

theorem swapped_apply {α : Type} (x : SIn.Idx → α) (i : SOut.Idx) : swapped x i = x (src i) := rfl

theorem src_val0 (i : SOut.Idx) : (src i 0).val = (i 0).val := rfl
theorem src_val1 (i : SOut.Idx) : (src i 1).val = (i 1).val := rfl
theorem src_val2 (i : SOut.Idx) : (src i 2).val = (i 3).val := rfl
theorem src_val3 (i : SOut.Idx) : (src i 3).val = (i 2).val := rfl

end Cert.Patches
-- ==== Proof.ExchangedArray.lean ====
/-
  From blocks to the array. The grid has 16 × 2 points; point (b, h) reads the block of the input at rows
  w ∈ [16 h, 16 h + 16) of batch b — all 1000 × 64 entries of each row — and writes the block of the result at the
  same b and the same rows w, all 64 × 1000 entries. What it writes is the exchange of the last two axes of what it
  read (the payload lemma), and an entry's position inside its block on the two exchanged axes IS its position in
  the array (the block index is 0 on both), so every written block is the block of ONE whole array: the input with
  its last two axes exchanged. The 32 blocks tile the result, so that array is what the region leaves.
-/
import proofs.«110156_j82669530513970_2_alg».proof.Proof.Gen.KernelIdeal.Frame
import proofs.«110156_j82669530513970_2_alg».proof.Proof.BlockPayload
import proofs.«110156_j82669530513970_2_alg».proof.Proof.Swapped
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.SL.Sem Cert.Patches
open Idealize.ShloMosaic.Pipeline (Dat)

variable {F : FTy → Type} [FloatOps F]
variable (m : (ℓ : Loc nD τ sig) → Buf (Elt F) ℓ) (ρ : Dev nD → PrngReg)

theorem zero_offsets : (![0, 0, 0, 0] : Fin 4 → Nat) = fun _ => 0 := funext fun a => by fin_cases a <;> rfl

/-- The two windows move together over the grid, block index (b, h, 0, 0) at point (b, h): decided over the 32 points. -/
theorem index_facts : ∀ t : Fin cfg0.N, win0_0.index t (0 : Fin 4) = win0_1.index t (0 : Fin 4)
    ∧ win0_0.index t (1 : Fin 4) = win0_1.index t (1 : Fin 4)
    ∧ win0_0.index t (2 : Fin 4) = 0 ∧ win0_0.index t (3 : Fin 4) = 0
    ∧ win0_1.index t (2 : Fin 4) = 0 ∧ win0_1.index t (3 : Fin 4) = 0
    ∧ win0_1.index t (0 : Fin 4) ≤ 15 ∧ win0_1.index t (1 : Fin 4) ≤ 1 :=
  (by decide +kernel : ∀ t : Fin grid0.N, _)

/-- Every block of the result is some point's. -/
theorem index_onto : ∀ (q0 : Fin 16) (q1 : Fin 2), ∃ t : Fin cfg0.N, win0_1.index t = ![q0.val, q1.val, 0, 0] :=
  (by decide +kernel : ∀ (q0 : Fin 16) (q1 : Fin 2), ∃ t : Fin grid0.N, win0_1.index t = ![q0.val, q1.val, 0, 0])

/-- What point `t` writes back is its block of the input with the last two axes exchanged. -/
theorem flushed_eq (c : Dev nD) (t : Fin cfg0.N) :
    (dats m 0 c).flushed 1 t = ((cfg0.win 1).blk t).view.read (Elt F) (swapped (α := Elt F .f32) (V m c main_arg0)) := by
  show (cfg0.win 1).cut (grid0.coords t) ((dats m 0 c).after 1 t) = _
  rw [after0_1]
  unfold out0_1
  rw [View.canon_unit_zero zero_offsets]
  simp only [View.ld_unit_zero (S := S1x16x1000x64) zero_offsets]
  obtain ⟨e0, e1, e2, e3, e4, e5, -, -⟩ := index_facts t
  funext j
  have hj0 : (j 0).val < 1 := (j 0).isLt
  have hj1 : (j 1).val < 16 := (j 1).isLt
  have hj2 : (j 2).val < 64 := (j 2).isLt
  have hj3 : (j 3).val < 1000 := (j 3).isLt
  -- the index inside the input's block: (0, w, t, ch) for (0, w, ch, t)
  refine (pay_apply (iblk m c 0 t) j
    (fun a => match a with
      | ⟨0, _⟩ => ⟨(j 0).val, (j 0).isLt⟩
      | ⟨1, _⟩ => ⟨(j 1).val, (j 1).isLt⟩
      | ⟨2, _⟩ => ⟨(j 3).val, (j 3).isLt⟩
      | ⟨3, _⟩ => ⟨(j 2).val, (j 2).isLt⟩) rfl rfl rfl).trans ?_
  show V m c main_arg0 (((cfg0.win 0).blk t).view.emb _) = V m c main_arg0 (src (((cfg0.win 1).blk t).view.emb j))
  refine congrArg (V m c main_arg0) (funext fun a => Fin.ext ?_)
  match a with
  | ⟨0, _⟩ =>
    show win0_0.index t (0 : Fin 4) * 1 + 1 * (j 0).val = win0_1.index t (0 : Fin 4) * 1 + 1 * (j 0).val
    omega
  | ⟨1, _⟩ =>
    show win0_0.index t (1 : Fin 4) * 16 + 1 * (j 1).val = win0_1.index t (1 : Fin 4) * 16 + 1 * (j 1).val
    omega
  | ⟨2, _⟩ =>
    show win0_0.index t (2 : Fin 4) * 1000 + 1 * (j 3).val = win0_1.index t (3 : Fin 4) * 1000 + 1 * (j 3).val
    omega
  | ⟨3, _⟩ =>
    show win0_0.index t (3 : Fin 4) * 64 + 1 * (j 2).val = win0_1.index t (2 : Fin 4) * 64 + 1 * (j 2).val
    omega

/-- An index of the result is in point `t`'s block iff each coordinate is in the block's range on its axis. -/
theorem mem_blk (t : Fin cfg0.N) (i : S16x32x64x1000.Idx) :
    i ∈ ((cfg0.win 1).blk t).view.set ↔ ∀ a : Fin 4, win0_1.index t a * S1x16x64x1000.size a ≤ (i a).val ∧ (i a).val < win0_1.index t a * S1x16x64x1000.size a + S1x16x64x1000.size a := by
  show i ∈ ((View.whole main_v0).slice (win0_1.rect t)).set ↔ _
  rw [View.set_slice_whole, Rect.mem_set_unit]
  exact Iff.rfl

/-- The blocks tile the result: (b, w, ch, t) is in the block of point (b, w / 16). -/
theorem covered (i : S16x32x64x1000.Idx) :
    ∃ t : Fin cfg0.N, (cfg0.win 1).flush t = true ∧ i ∈ ((cfg0.win 1).blk t).view.set := by
  have hi0 : (i 0).val < 16 := (i 0).isLt
  have hi1 : (i 1).val < 32 := (i 1).isLt
  have hi2 : (i 2).val < 64 := (i 2).isLt
  have hi3 : (i 3).val < 1000 := (i 3).isLt
  obtain ⟨t, ht⟩ := index_onto ⟨(i 0).val, hi0⟩ ⟨(i 1).val / 16, by omega⟩
  have q0 : win0_1.index t (0 : Fin 4) = (i 0).val := congrFun ht 0
  have q1 : win0_1.index t (1 : Fin 4) = (i 1).val / 16 := congrFun ht 1
  have q2 : win0_1.index t (2 : Fin 4) = 0 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 16 ≤ (i 1).val ∧ (i 1).val < win0_1.index t (1 : Fin 4) * 16 + 16; omega
  | ⟨2, _⟩ => show win0_1.index t (2 : Fin 4) * 64 ≤ (i 2).val ∧ (i 2).val < win0_1.index t (2 : Fin 4) * 64 + 64; omega
  | ⟨3, _⟩ => show win0_1.index t (3 : Fin 4) * 1000 ≤ (i 3).val ∧ (i 3).val < win0_1.index t (3 : Fin 4) * 1000 + 1000; omega

/-- The result array after the region: the input, as launched, with its last two axes exchanged. -/
theorem exchanged (c : Dev nD) :
    (dats m 0 c).arrAt 1 cfg0.N = swapped (α := Elt F .f32) (m ((c : Thread nD τ).loc main_arg0)) :=
  (dats m 0 c).arrAt_eq_of_cover 1 (swapped (α := Elt F .f32) (V m c main_arg0)) (fun t _ => flushed_eq m c t) covered

end Cert.KernelIdeal.Hand

end
-- ==== Proof.KernelRun.lean ====
/-
  The kernel program's run, read. After the region the host lines re-lay the exchanged array, without moving a
  number, as 16 × 32 × 320 × 200 (position (c·5 + p, q) of the last two axes is position (c, p·200 + q) of the
  exchanged array's), and build two tables of 320 integers that depend on no input (the channel c and the patch p of
  row c·5 + p). So the first result is the re-laying of the input with its last two axes exchanged, the other two
  are fixed tables, and the argument is unchanged.
-/
import proofs.«110156_j82669530513970_2_alg».proof.Proof.Gen.KernelIdeal.Frame
import proofs.«110156_j82669530513970_2_alg».proof.Proof.ExchangedArray
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Cert.Patches
open Idealize.ShloMosaic.Pipeline (Dat)

variable {F : FTy → Type} [FloatOps F]
variable (m : (ℓ : Loc nD τ sig) → Buf (Elt F) ℓ) (ρ : Dev nD → PrngReg)

/-- The result buffers are no array of the region's two windows, and outlive it. -/
theorem mem_rest_v1 : main_v1 ∈ Pipeline.restRefs sig (cfgs 0).spec :=
  Pipeline.mem_restRefs_of main_v1 rfl (fun w => by fin_cases w <;> decide)
theorem mem_rest_v4 : main_v4 ∈ Pipeline.restRefs sig (cfgs 0).spec :=
  Pipeline.mem_restRefs_of main_v4 rfl (fun w => by fin_cases w <;> decide)
theorem mem_rest_v8 : main_v8 ∈ Pipeline.restRefs sig (cfgs 0).spec :=
  Pipeline.mem_restRefs_of main_v8 rfl (fun w => by fin_cases w <;> decide)

/-- The host lines after the region leave, in the first result, the re-laying of the array the region wrote. -/
theorem tail_v1 (c : Dev nD) :
    Pipeline.afterTail₀ cfgs (dats m) 0 (V0 m) [hostOps1] c main_v1
      = shapeCast S16x32x320x200 ((dats m 0 c).arrAt 1 cfg0.N) shapeCasts_S16x32x64x1000_S16x32x320x200 := by
  have e : Pipeline.withArrays (cfgs 0).spec c (V0 m c) (fun w => (dats m 0 c).arrAt w (cfgs 0).N) (Proc.devRef .tc main_v0)
      = (dats m 0 c).arrAt 1 cfg0.N :=
    Pipeline.withArrays_arr spec0 launch0.win.arr_inj c _ _ 1
  unfold Pipeline.afterTail₀
  show StableHlo.after hostOps1 _ (Proc.devRef .tc main_v1) = _
  after_results
  rw [e]
  rfl

/-- The second result: the channel of each of the 320 rows. -/
theorem tail_v4 (c : Dev nD) :
    Pipeline.afterTail₀ cfgs (dats m) 0 (V0 m) [hostOps1] c main_v4
      = shapeCast S320 (broadcastInDim S64x5 ![0] bcast_S64_S64x5_0 (iotaInDim S64 32 0)) shapeCasts_S64x5_S320 := by
  unfold Pipeline.afterTail₀
  show StableHlo.after hostOps1 _ (Proc.devRef .tc main_v4) = _
  after_results
  rfl

/-- The third result: the patch of each of the 320 rows. -/
theorem tail_v8 (c : Dev nD) :
    Pipeline.afterTail₀ cfgs (dats m) 0 (V0 m) [hostOps1] c main_v8
      = shapeCast S320 (broadcastInDim S64x5 ![0, 1] bcast_S1x5_S64x5_0_1 (shapeCast S1x5 (iotaInDim S5 32 0) shapeCasts_S5_S1x5)) shapeCasts_S64x5_S320 := by
  unfold Pipeline.afterTail₀
  show StableHlo.after hostOps1 _ (Proc.devRef .tc main_v8) = _
  after_results
  rfl

/-- Every weakly fair execution of the kernel program ends with the first result at the re-laying of the exchanged
    input, the two tables at their fixed contents and the argument as launched. -/
theorem run : θ_run defs (onTc (τ := τ) (main (F := F))) ⟨m, fun _ => 0, ρ⟩ fun r => ∀ c : Dev nD,
      r.2.mem ((c.tc : Thread nD τ).loc main_v1)
        = shapeCast S16x32x320x200 (swapped (α := Elt F .f32) (m ((c.tc : Thread nD τ).loc main_arg0))) shapeCasts_S16x32x64x1000_S16x32x320x200
      ∧ r.2.mem ((c.tc : Thread nD τ).loc main_v4)
        = shapeCast S320 (broadcastInDim S64x5 ![0] bcast_S64_S64x5_0 (iotaInDim S64 32 0)) shapeCasts_S64x5_S320
      ∧ r.2.mem ((c.tc : Thread nD τ).loc main_v8)
        = shapeCast S320 (broadcastInDim S64x5 ![0, 1] bcast_S1x5_S64x5_0_1 (shapeCast S1x5 (iotaInDim S5 32 0) shapeCasts_S5_S1x5)) shapeCasts_S64x5_S320
      ∧ r.2.mem ((c.tc : Thread nD τ).loc main_arg0) = m ((c.tc : Thread nD τ).loc main_arg0) :=
  (θ_run defs _ _).mono (fun r h c =>
    ⟨((h c).2 main_v1 mem_rest_v1).trans ((tail_v1 m c).trans (by rw [exchanged])),
     ((h c).2 main_v4 mem_rest_v4).trans (tail_v4 m c),
     ((h c).2 main_v8 mem_rest_v8).trans (tail_v8 m c),
     ((h c).1 0).trans (((dats m 0 c).arrAt_in 0 rfl _).trans ((A_eq m c 0).trans (V_main_arg0 m c)))⟩)
    (run_main m ρ)

end Cert.KernelIdeal.Hand

end
-- ==== Proof.RefExchange.lean ====
/-
  The reference's first operation, a transposition by the permutation (0, 1, 3, 2), is the exchange of the last two
  axes: read at (b, w, ch, t) it is the input at (b, w, t, ch).
-/
import proofs.«110156_j82669530513970_2_alg».proof.Proof.Gen.ReferenceIdeal.Read
import proofs.«110156_j82669530513970_2_alg».proof.Proof.Swapped

noncomputable section

namespace Cert.ReferenceIdeal.Hand

open Cert.ReferenceIdeal Cert.ReferenceIdeal.Read Idealize.ShloMosaic Cert.Patches

variable {F : FTy → Type} [FloatOps F]

/-- The reference's transposed array is the input with its last two axes exchanged. -/
theorem transposed_eq (x0 : (⟨S16x32x1000x64, .f32⟩ : BufTy).Contents (Elt F)) :
    val_main_v0 (F := F) x0 = swapped (α := Elt F .f32) x0 := by
  funext i
  rw [val_main_v0_apply, swapped_apply]
  refine congrArg x0 (funext fun a => ?_)
  match a with
  | ⟨0, _⟩ => rfl
  | ⟨1, _⟩ => rfl
  | ⟨2, _⟩ => rfl
  | ⟨3, _⟩ => rfl

end Cert.ReferenceIdeal.Hand

end
-- ==== Proof.lean ====
/-
  A patcher of multichannel recordings: the input x[b, w, t, ch] (16 × 32 × 1000 × 64) is cut, along time, into 5
  patches of 200 samples per channel, and the result lists, for every (b, w), the 64·5 = 320 patches channel by
  channel: result[b, w, c·5 + p, q] = x[b, w, p·200 + q, c]. Two tables of 320 integers come with it, the channel c and
  the patch number p of each row; they depend on no input.

  Both programs compute this in two steps: the last two axes of x are exchanged, y[b, w, ch, t] = x[b, w, t, ch], and
  y is re-laid, no number moving, as 16 × 32 × 320 × 200. The reference exchanges the whole array at once; the kernel
  does it in 32 blocks of 16 rows w each, every block exchanged on its own, and the blocks tile y. The re-laying and
  the two tables are the same operations in both programs. No arithmetic is done anywhere, so the two results agree
  entry by entry whatever the entries are, and the finiteness of the input is never used. The idealization rewrote
  nothing, so that the idealized kernel is the kernel's own text is the empty statement.
-/
import proofs.«110156_j82669530513970_2_alg».proof.Defs
import proofs.«110156_j82669530513970_2_alg».proof.Proof.Gen.Kernel
import proofs.«110156_j82669530513970_2_alg».proof.Proof.Gen.Kernel.Skeleton
import proofs.«110156_j82669530513970_2_alg».proof.Proof.Gen.Kernel.Launch
import proofs.«110156_j82669530513970_2_alg».proof.Proof.Gen.Kernel.Points
import proofs.«110156_j82669530513970_2_alg».proof.Proof.Gen.Kernel.Frame
import proofs.«110156_j82669530513970_2_alg».proof.Proof.Gen.KernelIdeal
import proofs.«110156_j82669530513970_2_alg».proof.Proof.Gen.KernelIdeal.Skeleton
import proofs.«110156_j82669530513970_2_alg».proof.Proof.Gen.KernelIdeal.Launch
import proofs.«110156_j82669530513970_2_alg».proof.Proof.Gen.KernelIdeal.Points
import proofs.«110156_j82669530513970_2_alg».proof.Proof.Gen.KernelIdeal.Frame
import proofs.«110156_j82669530513970_2_alg».proof.Proof.Gen.ReferenceIdeal
import proofs.«110156_j82669530513970_2_alg».proof.Proof.Gen.ReferenceIdeal.Run
import proofs.«110156_j82669530513970_2_alg».proof.Proof.Gen.ReferenceIdeal.Read
import proofs.«110156_j82669530513970_2_alg».proof.Proof.Gen.Pre_finite_inputs
import proofs.«110156_j82669530513970_2_alg».proof.Proof.KernelRun
import proofs.«110156_j82669530513970_2_alg».proof.Proof.RefExchange
import Idealize.ShloMosaic.Adequacy
import Idealize.ShloMosaic.Init

noncomputable section

namespace Cert.Proof

open Idealize.ShloMosaic Idealize.SL.Sem

/-- The word-level kernel terminates, faults nowhere and leaves its argument as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the argument, both programs end with the re-laying of the exchanged input and the
    same two tables: the reference's transposition is the exchange, and everything after it is the same text. -/
theorem algebraic : Cert.algebraic_KernelIdeal_ReferenceIdeal := by
  intro m ρ m' ρ' _ hagree
  refine ⟨_, _, _, Cert.KernelIdeal.Hand.run (F := Ideal) m ρ, ?_⟩
  refine (θ_run Cert.ReferenceIdeal.defs _ _).mono (fun _ h c => ⟨(h c).1.trans ?_, (h c).2.1, (h c).2.2.1, (h c).2.2.2⟩)
    (Cert.ReferenceIdeal.Value.run (F := Ideal) m' ρ')
  rw [hagree c, Cert.ReferenceIdeal.Read.val_main_v1_eq]
  unfold Cert.ReferenceIdeal.Read.val_main_v1
  rw [Cert.ReferenceIdeal.Hand.transposed_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
